-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1 : Shape := ⟨2, ![1024, 1]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S16x1024x1024 .f32) (main_arg1 : FVec F S16x1024x1024 .f32) (main_arg2 : FVec F S1024x1 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  main_v13
-- ==== Kernel.lean ====
abbrev S16x1024x1024 : Shape := ⟨3, ![16, 1024, 1024]⟩
abbrev S1024x1 : Shape := ⟨2, ![1024, 1]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1, .f32⟩
  | .hbm, ⟨3, _⟩ => ⟨S1x1024, .f32⟩
  | .hbm, ⟨4, _⟩ => ⟨S16x1024x1024, .f32⟩
  | .local _ .vmem, ⟨0, _⟩ => ⟨S1x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x1024x512, .f32⟩
  | .local _ .vmem, ⟨6, _⟩ => ⟨S1x1024x512, .f32⟩
  | .local _ .vmem, ⟨7, _⟩ => ⟨S1024x1024, .bf16⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024x1_S1x1024 : S1024x1.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x1024x1024.size a
  hwx0_3 : ∀ i : grid0.Coords, EltTy.bits .f32 = 32 ∨ (Rect.block (s := S16x1024x1024) S1x1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1 : Shape := ⟨2, ![1024, 1]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1, .f32⟩
  | .hbm, ⟨3, _⟩ => ⟨S1024, .f32⟩
  | .hbm, ⟨4, _⟩ => ⟨S1x1x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S_, .f32⟩
  | .hbm, ⟨9, _⟩ => ⟨S16x1024, .f32⟩
  | .hbm, ⟨10, _⟩ => ⟨S16x1024x1, .f32⟩
  | .hbm, ⟨11, _⟩ => ⟨S_, .f32⟩
  | .hbm, ⟨12, _⟩ => ⟨S16x1024x1, .f32⟩
  | .hbm, ⟨13, _⟩ => ⟨S16x1024x1, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S1x1x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S16x1024, .f32⟩
  | .hbm, ⟨23, _⟩ => ⟨S16x1024x1, .f32⟩
  | .hbm, ⟨24, _⟩ => ⟨S_, .f32⟩
  | .hbm, ⟨25, _⟩ => ⟨S16x1024x1, .f32⟩
  | .hbm, ⟨26, _⟩ => ⟨S16x1024x1, .f32⟩
  | .hbm, ⟨27, _⟩ => ⟨S16x1024x1, .f32⟩
  | .hbm, ⟨28, _⟩ => ⟨S16x1024x1024, .f32⟩
  | .hbm, ⟨29, _⟩ => ⟨S16x1024x1024, .f32⟩
  | .hbm, ⟨30, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S1024x1_S1024 : S1024x1.ShapeCasts S1024
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x1024_0_1_2 : S16x1024x1.BroadcastsInDim S16x1024x1024 (![0, 1, 2] : Fin 3 → Fin S16x1024x1024.rank)
  dot_S16x1024x1024_S16x1024x1024_S16x1024x1024_2_2_1_1_0_0_wf : DotDims.WF S16x1024x1024 S16x1024x1024 S16x1024x1024 [2] [2] [1] [1] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf

class Facts : Prop extends Facts₀ where

variable [Facts]
-- ==== Proof.Pieces.lean ====
/-
  What one run of the kernel body leaves behind, as values.

  The body weights and normalises the rows of its `b` block every time; the rows of the `a` block it weights and
  normalises only at the first column block of a batch, and keeps the result in a scratch buffer that the second column
  block reads. So there are two control cases. In the first, the scratch ends holding the unit rows of the `a` block and the
  output block is their product with the `b` block's unit rows; in the second the scratch is untouched and the output
  block is the product of whatever the scratch held with the `b` block's unit rows. Each statement is one covering store
  read back whole, over staging buffers read whole; the arithmetic stays folded in the body's two payload terms.
-/
import proofs.«146136_j21715354648692_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A (the first column block of a batch): the scratch ends holding the unit rows of the batch's `a` block —
    the one store's payload, whose loads read the whole staging buffers. -/
theorem scratch_A (c : Dev nD) (i : grid0.Coords) (a2 : Memref sig .tc .vmem S1x1024 .f32) (h2 : a2.IsWhole)
    (a3 : Memref sig .tc .vmem S1x1024x1024 .f32) (h3 : a3.IsWhole) (a4 : Memref sig .tc .vmem S1x512x1024 .f32) (h4 : a4.IsWhole)
    (a5 : Memref sig .tc .vmem S1x1024x512 .f32) (h5 : a5.IsWhole) (a6 : Memref sig .tc .vmem S1024x1024 .bf16) (h6 : a6.IsWhole)
    (hc : cond0_0 i) (x0 : Vec F S1x1024 .f32) (x1 : Vec F S1x1024x1024 .f32) (x2 : Vec F S1x512x1024 .f32) :
    sout0_A_0 c i a2 h2 a3 h3 a4 h4 a5 h5 a6 h6 hc x0 x1 x2 = k0_pay2 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1x1024) hz2,
    View.ld_unit_zero (S := S1x1024x1024) hz3]

/-- Case A: the output block is the product of what was just stored in the scratch (read back whole) with the unit rows
    of the `b` block. -/
theorem out_A (c : Dev nD) (i : grid0.Coords) (a2 : Memref sig .tc .vmem S1x1024 .f32) (h2 : a2.IsWhole)
    (a3 : Memref sig .tc .vmem S1x1024x1024 .f32) (h3 : a3.IsWhole) (a4 : Memref sig .tc .vmem S1x512x1024 .f32) (h4 : a4.IsWhole)
    (a5 : Memref sig .tc .vmem S1x1024x512 .f32) (h5 : a5.IsWhole) (a6 : Memref sig .tc .vmem S1024x1024 .bf16) (h6 : a6.IsWhole)
    (hc : cond0_0 i) (x0 : Vec F S1x1024 .f32) (x1 : Vec F S1x1024x1024 .f32) (x2 : Vec F S1x512x1024 .f32) :
    out0_A_3 c i a2 h2 a3 h3 a4 h4 a5 h5 a6 h6 hc x0 x1 x2 = k0_pay3 x0 x2 (k0_pay2 x0 x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, View.ld_unit_zero (S := S1x1024) hz2,
    View.ld_unit_zero (S := S1x1024x1024) hz3, View.ld_unit_zero (S := S1x512x1024) hz3, View.readCov_unit_zero (S := S1024x1024) _ hz2]

/-- Case B (the second column block): the scratch is only read, so the output block is the product of what the scratch
    held on entry with the unit rows of the `b` block. -/
theorem out_B (c : Dev nD) (i : grid0.Coords) (a2 : Memref sig .tc .vmem S1x1024 .f32) (h2 : a2.IsWhole)
    (a3 : Memref sig .tc .vmem S1x1024x1024 .f32) (h3 : a3.IsWhole) (a4 : Memref sig .tc .vmem S1x512x1024 .f32) (h4 : a4.IsWhole)
    (a5 : Memref sig .tc .vmem S1x1024x512 .f32) (h5 : a5.IsWhole) (a6 : Memref sig .tc .vmem S1024x1024 .bf16) (h6 : a6.IsWhole)
    (hc : ¬cond0_0 i) (x0 : Vec F S1x1024 .f32) (x1 : Vec F S1x1024x1024 .f32) (x2 : Vec F S1x512x1024 .f32) (xs : Vec F S1024x1024 .bf16) :
    out0_B_3 c i a2 h2 a3 h3 a4 h4 a5 h5 a6 h6 hc x0 x1 x2 xs = k0_pay3 x0 x2 xs := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz3]
  simp only [View.readAt_eq_ld, h2.read_unread, h4.read_unread, h6.read_unread, View.ld_unit_zero (S := S1x1024) hz2,
    View.ld_unit_zero (S := S1x512x1024) hz3, View.ld_unit_zero (S := S1024x1024) hz2]

end Cert.KernelIdeal.Pieces

end
-- ==== Proof.Spec.lean ====
/-
  The common value of both programs, as one function of the argument arrays.

  Inputs: two stacks of sixteen 1024 × 1024 matrices, `a` and `b`, and a weight column `w` of 1024 entries.
  Every row of every matrix is first weighted entry by entry, `x[p, i, d] · w[d]`, and then scaled to unit length:
  the weighted row times `rsqrt (max (sum of its squares) floor)`, where `floor` is the one f32 word
  `0x2B8CBCCC` both programs spell (about 1e-12; it is never evaluated here, only compared with itself).
  The result, for matrix `p`, is the table of inner products of the unit rows of `a[p]` with the unit rows of `b[p]`:
  `out[p, i, j] = ∑ d, unit a [p, i, d] · unit b [p, j, d]`.
  Over the extended reals this is a plain finite sum of products: no law beyond the definitions is used to state it.
-/
import Idealize.ShloMosaic.PureOps.Ideal
import Idealize.ShloMosaic.Lib.ValueIdx

noncomputable section

namespace Cert.Match

open Idealize.ShloMosaic Idealize.ShloMosaic.ValueIdx

/-- The shape of `a`, of `b` and of the result. -/
abbrev Arr : Shape := ⟨3, ![16, 1024, 1024]⟩
/-- The shape of the weight column. -/
abbrev Wgt : Shape := ⟨2, ![1024, 1]⟩

/-- The lower bound under the reciprocal square root: the f32 word both programs write. -/
abbrev floor : EReal := Ideal.ofBits .f32 0x2B8CBCCC#32

/-- Entry `d` of row `i` of matrix `p` of `x`, weighted. -/
def weighted (x : FVec Ideal Arr .f32) (w : FVec Ideal Wgt .f32) (p : Fin 16) (i d : Fin 1024) : EReal :=
  x (ix3 p i d) * w (ix2 d (0 : Fin 1))

/-- The scale of row `i` of matrix `p`: the reciprocal square root of its weighted squares' sum, bounded below. -/
def scale (x : FVec Ideal Arr .f32) (w : FVec Ideal Wgt .f32) (p : Fin 16) (i : Fin 1024) : EReal :=
  Ideal.rsqrt (max (∑ k : Fin 1024, weighted x w p i k * weighted x w p i k) floor)

/-- Entry `d` of the unit row `i` of matrix `p`. -/
def unitRow (x : FVec Ideal Arr .f32) (w : FVec Ideal Wgt .f32) (p : Fin 16) (i d : Fin 1024) : EReal :=
  weighted x w p i d * scale x w p i

/-- The inner product of unit row `i` of `a[p]` with unit row `j` of `b[p]`. -/
def rowsInner (a b : FVec Ideal Arr .f32) (w : FVec Ideal Wgt .f32) (p : Fin 16) (i j : Fin 1024) : EReal :=
  ∑ d : Fin 1024, unitRow a w p i d * unitRow b w p j d

/-- The result array. -/
def result (a b : FVec Ideal Arr .f32) (w : FVec Ideal Wgt .f32) : FVec Ideal Arr .f32 :=
  fun t => rowsInner a b w (t 0) (t 1) (t 2)

theorem result_ix3 (a b : FVec Ideal Arr .f32) (w : FVec Ideal Wgt .f32) (p : Fin 16) (i j : Fin 1024) :
    result a b w (ix3 p i j) = rowsInner a b w p i j := rfl

end Cert.Match

end
-- ==== Proof.Layout.lean ====
/-
  Four readings at an index, over indices written by coordinates, that the bridge needs:
  a vector cast to a column (`[a] → [a, 1]`), a column re-laid as a row (`[a, 1] → [1, a]`), a column repeated along the rows (`[a, 1] → [a, b]`), and a sum along the
  minor axis of a matrix read over the extended reals as the finite sum of the row's entries.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Match

open Idealize.ShloMosaic Idealize.ShloMosaic.ValueIdx

variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, d)`, the column's entry `d`: both have row-major position `d`. -/
theorem shapeCast_a1_1a_apply {a : ℕ} (x : (⟨2, ![a, 1]⟩ : Shape).Idx → α) (h : (⟨2, ![a, 1]⟩ : Shape).ShapeCasts ⟨2, ![1, a]⟩)
    (u : Fin 1) (d : Fin a) : shapeCast ⟨2, ![1, a]⟩ x h (ix2 u d) = x (ix2 d (0 : Fin 1)) :=
  shapeCast_apply x h _ _ (by
    have hu : u.val = 0 := by omega
    rw [Shape.rowMajor_val_two, Shape.rowMajor_val_two]
    show d.val * 1 + 0 = u.val * a + d.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the minor axis of an `[a, b]` matrix, over the extended reals, at row `r`: the sum of the row's `b` entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = ∑ k : Fin b, src (ix2 r k)
  refine Finset.sum_congr rfl fun k _ => congrArg src (funext fun d => Fin.ext ?_)
  match d with
  | ⟨0, _⟩ => rfl
  | ⟨1, _⟩ => rfl

end Cert.Match

end
-- ==== Proof.PayloadRead.lean ====
/-
  The body's two payloads, read at an index over the extended reals.

  A block of `R` rows (`[1, R, 1024]`) is weighted by the one-row weight block (`[1, 1024]`), each weighted row's squares are
  summed along the row, the sum is bounded below by the floor word, its reciprocal square root is repeated along the row and
  multiplies the weighted row: entry `(r, d)` of the block's unit rows, `blockUnit`. Narrowing to bf16 is the identity on
  the extended reals. The first payload is `blockUnit` of the `a` block; the second is the matrix product, into zeros, of
  the scratch (1024 rows) with the transposed unit rows of the `b` block (512 rows): at `(i, j)` the finite sum over `d` of
  scratch `(i, d)` times `blockUnit` of the `b` block at `(j, d)`.
-/
import proofs.«146136_j21715354648692_2_alg».proof.Proof.Gen.KernelIdeal.Skeleton
import proofs.«146136_j21715354648692_2_alg».proof.Proof.Spec
import proofs.«146136_j21715354648692_2_alg».proof.Proof.Layout

noncomputable section

namespace Cert.KernelIdeal.PayRead

open Cert.KernelIdeal Cert.KernelIdeal.Gen Idealize.ShloMosaic Idealize.ShloMosaic.ValueIdx Cert.Match

/-- Entry `(r, d)` of a block of rows, weighted. -/
def blockWeighted {R : ℕ} (x : FVec Ideal ⟨3, ![1, R, 1024]⟩ .f32) (w0 : FVec Ideal ⟨2, ![1, 1024]⟩ .f32) (r : Fin R) (d : Fin 1024) : EReal :=
  x (ix3 (0 : Fin 1) r d) * w0 (ix2 (0 : Fin 1) d)

/-- Entry `(r, d)` of the unit rows of a matrix of rows: the entry times the row's scale. -/
def unitOf {R : ℕ} (y : FVec Ideal ⟨2, ![R, 1024]⟩ .f32) (r : Fin R) (d : Fin 1024) : EReal :=
  y (ix2 r d) * Ideal.rsqrt (max (∑ k : Fin 1024, y (ix2 r k) * y (ix2 r k)) floor)

/-- Entry `(r, d)` of the unit rows of a weighted block. -/
def blockUnit {R : ℕ} (x : FVec Ideal ⟨3, ![1, R, 1024]⟩ .f32) (w0 : FVec Ideal ⟨2, ![1, 1024]⟩ .f32) (r : Fin R) (d : Fin 1024) : EReal :=
  blockWeighted x w0 r d * Ideal.rsqrt (max (∑ k : Fin 1024, blockWeighted x w0 r k * blockWeighted x w0 r k) floor)

/-- A block's unit row is the array's: when row `r` of the block is row `row` of matrix `p` of the array, entry by entry, and the
    weight block's one row is the weight column, the two spell the same extended real. -/
theorem blockUnit_eq {R : ℕ} (x : FVec Ideal ⟨3, ![1, R, 1024]⟩ .f32) (w0 : FVec Ideal ⟨2, ![1, 1024]⟩ .f32)
    (X : FVec Ideal Arr .f32) (Wc : FVec Ideal Wgt .f32) (p : Fin 16) (row : Fin 1024) (r : Fin R)
    (hx : ∀ d : Fin 1024, x (ix3 (0 : Fin 1) r d) = X (ix3 p row d)) (hw : ∀ d : Fin 1024, w0 (ix2 (0 : Fin 1) d) = Wc (ix2 d (0 : Fin 1)))
    (d : Fin 1024) : blockUnit x w0 r d = unitRow X Wc p row d := by
  unfold blockUnit unitRow scale blockWeighted weighted
  simp only [hx, hw]

/-- The weighting, at `(r, d)`: the block without its unit axis times the weight row repeated over the rows. -/
theorem weighted_apply {R : ℕ} (x : FVec Ideal ⟨3, ![1, R, 1024]⟩ .f32) (w0 : FVec Ideal ⟨2, ![1, 1024]⟩ .f32)
    (h1 : (⟨3, ![1, R, 1024]⟩ : Shape).ShapeCasts ⟨2, ![R, 1024]⟩) (h2 : (⟨2, ![1, 1024]⟩ : Shape).Broadcasts ⟨2, ![R, 1024]⟩)
    (r : Fin R) (d : Fin 1024) :
    mulf (shapeCast ⟨2, ![R, 1024]⟩ x h1) (broadcastTo ⟨2, ![R, 1024]⟩ w0 h2) (ix2 r d) = blockWeighted x w0 r d := by
  show shapeCast ⟨2, ![R, 1024]⟩ x h1 (ix2 r d) * broadcastTo ⟨2, ![R, 1024]⟩ w0 h2 (ix2 r d) = _
  rw [shapeCast_1ab_ab_apply, broadcastTo_1b_ab_apply]
  rfl

/-- The normalisation, at `(r, d)`. -/
theorem unit_apply {R : ℕ} (y : FVec Ideal ⟨2, ![R, 1024]⟩ .f32) (acc : BitVec 32)
    (h : (⟨2, ![R, 1024]⟩ : Shape).Reduces [1] ⟨1, ![R]⟩) (hφ : FKind.Formats .f32) (hacc : acc = FKind.add.neutral .f32 hφ)
    (hc : (⟨1, ![R]⟩ : Shape).ShapeCasts ⟨2, ![R, 1]⟩) (hb : (⟨2, ![R, 1]⟩ : Shape).Broadcasts ⟨2, ![R, 1024]⟩)
    (r : Fin R) (d : Fin 1024) :
    mulf y (broadcastTo ⟨2, ![R, 1024]⟩
      (rsqrt (maximumf (shapeCast ⟨2, ![R, 1]⟩ (multiReduction (F := Ideal) .add [1] ⟨1, ![R]⟩ (mulf y y) acc h hφ hacc) hc)
        (broadcast ⟨2, ![R, 1]⟩ (Scalar.ofBits (F := Ideal) .f32 0x2B8CBCCC#32)))) hb) (ix2 r d) = unitOf y r d := by
  show y (ix2 r d) * broadcastTo ⟨2, ![R, 1024]⟩ _ hb (ix2 r d) = _
  rw [broadcastTo_a1_ab_apply]
  show y (ix2 r d) * Ideal.rsqrt (max (shapeCast ⟨2, ![R, 1]⟩ _ hc (ix2 r (0 : Fin 1))) floor) = _
  rw [shapeCast_a_a1_apply, rowSum_apply]
  rfl

/-- The first payload at `(i, d)`: the unit rows of the `a` block. -/
theorem pay2_apply (w0 : FVec Ideal S1x1024 .f32) (x1 : FVec Ideal S1x1024x1024 .f32) (i d : Fin 1024) :
    k0_pay2 (F := Ideal) w0 x1 (ix2 i d) = blockUnit x1 w0 i d := by
  unfold k0_pay2 k0_pay1
  dsimp only
  simp only [shapeCast_self]
  rw [truncf_apply]
  refine (unit_apply _ _ _ _ _ _ _ i d).trans ?_
  unfold unitOf blockUnit
  simp only [weighted_apply]

/-! ## The product's index maps: output `(i, j)`, contraction index `k` ↦ scratch `(i, k)`, `b` rows `(j, k)` -/

theorem lhs_row (t : S1024x512.Idx) (q : dot_S1024x1024_S512x1024_S1024x512_1_1_0_0_n_n.contr.Idx) :
    (dot_S1024x1024_S512x1024_S1024x512_1_1_0_0_n_n.lhsIdx t q 0).val = (t 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem lhs_col (t : S1024x512.Idx) (q : dot_S1024x1024_S512x1024_S1024x512_1_1_0_0_n_n.contr.Idx) :
    (dot_S1024x1024_S512x1024_S1024x512_1_1_0_0_n_n.lhsIdx t q 1).val = (q ⟨0, by decide⟩).val :=
  dot_S1024x1024_S512x1024_S1024x512_1_1_0_0_n_n.lhsIdx_val_of_single rfl t q
theorem rhs_row (t : S1024x512.Idx) (q : dot_S1024x1024_S512x1024_S1024x512_1_1_0_0_n_n.contr.Idx) :
    (dot_S1024x1024_S512x1024_S1024x512_1_1_0_0_n_n.rhsIdx t q 0).val = (t 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem rhs_col (t : S1024x512.Idx) (q : dot_S1024x1024_S512x1024_S1024x512_1_1_0_0_n_n.contr.Idx) :
    (dot_S1024x1024_S512x1024_S1024x512_1_1_0_0_n_n.rhsIdx t q 1).val = (q ⟨0, by decide⟩).val :=
  dot_S1024x1024_S512x1024_S1024x512_1_1_0_0_n_n.rhsIdx_val_of_single rfl t q

/-- The product into zeros, at `(i, j)`: the finite sum over the shared axis. -/
theorem product_apply (xs : FVec Ideal S1024x1024 .bf16) (u : FVec Ideal S512x1024 .bf16) (i : Fin 1024) (j : Fin 512) :
    matmul dot_S1024x1024_S512x1024_S1024x512_1_1_0_0_n_n none xs u (constant (F := Ideal) S1024x512 .f32 0x00000000#32) (ix2 i j)
      = ∑ k : Fin 1024, xs (ix2 i k) * u (ix2 j k) := by
  refine (Ideal.matmul_constant_zero_apply dot_S1024x1024_S512x1024_S1024x512_1_1_0_0_n_n none xs u (ix2 i j)).trans ?_
  rw [← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 i j)
      ((ValueIdx.contrEquiv1 dot_S1024x1024_S512x1024_S1024x512_1_1_0_0_n_n 1024 rfl rfl).symm k) = ix2 i k :=
    funext fun a => Fin.ext (by
      match a with
      | ⟨0, _⟩ => exact lhs_row _ _
      | ⟨1, _⟩ => exact (lhs_col _ _).trans hk)
  have er : dot_S1024x1024_S512x1024_S1024x512_1_1_0_0_n_n.rhsIdx (ix2 i j)
      ((ValueIdx.contrEquiv1 dot_S1024x1024_S512x1024_S1024x512_1_1_0_0_n_n 1024 rfl rfl).symm k) = ix2 j k :=
    funext fun a => Fin.ext (by
      match a with
      | ⟨0, _⟩ => exact rhs_row _ _
      | ⟨1, _⟩ => exact (rhs_col _ _).trans hk)
  rw [el, er]

/-- The second payload at `(0, i, j)`: row `i` of the scratch against unit row `j` of the `b` block. -/
theorem pay3_apply (w0 : FVec Ideal S1x1024 .f32) (x2 : FVec Ideal S1x512x1024 .f32) (xs : FVec Ideal S1024x1024 .bf16)
    (i : Fin 1024) (j : Fin 512) :
    k0_pay3 (F := Ideal) w0 x2 xs (ix3 (0 : Fin 1) i j) = ∑ k : Fin 1024, xs (ix2 i k) * blockUnit x2 w0 j k := by
  unfold k0_pay3 k0_pay1
  dsimp only
  simp only [shapeCast_self]
  rw [shapeCast_ab_1ab_apply]
  refine (product_apply _ _ i j).trans ?_
  refine Finset.sum_congr rfl fun k _ => congrArg (xs (ix2 i k) * ·) ?_
  rw [truncf_apply]
  refine (unit_apply _ _ _ _ _ _ _ j k).trans ?_
  unfold unitOf blockUnit
  simp only [weighted_apply]

end Cert.KernelIdeal.PayRead

end
-- ==== Proof.KernelValue.lean ====
/-
  The kernel's result array, as the specification.

  The grid has 32 points, `t = 2·p + q`: matrix `p` of sixteen, column block `q` of two. At point `t` the weight window
  holds the whole re-laid weight row, the `a` window matrix `p` whole, the `b` window rows `512·q …` of matrix `p`, and the
  output window is columns `512·q …` of matrix `p` of the result. At `q = 0` the body stores the unit rows of `a[p]` in the
  scratch; at `q = 1` the scratch still holds what point `t − 1 = 2·p` stored, which is the unit rows of the same matrix.
  So at every point the scratch read by the product is the unit rows of `a[p]`, and the block written back is
  `out[p, i, 512·q + j] = ∑ d, unit a [p, i, d] · unit b [p, 512·q + j, d]`: the specification read through the block.
  The 32 blocks cover the array (an index `(p, i, j)` is in the block of point `2·p + j / 512`), so the array ends as the
  specification of the argument arrays.
-/
import proofs.«146136_j21715354648692_2_alg».proof.Proof.Gen.KernelIdeal.Value
import proofs.«146136_j21715354648692_2_alg».proof.Proof.Pieces
import proofs.«146136_j21715354648692_2_alg».proof.Proof.PayloadRead
import Idealize.ShloMosaic.Lib.Pipeline.Value
import Idealize.ShloMosaic.Lib.StableHlo.Run

noncomputable section

namespace Cert.KernelIdeal.RefValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Match Cert.KernelIdeal.PayRead Cert.KernelIdeal.Pieces

variable (m : (ℓ : Loc nD τ sig) → Buf (Elt Ideal) ℓ) (ρ : Dev nD → PrngReg)

/-- The specification of the argument arrays as launched. -/
abbrev spec (c : Dev nD) : FVec Ideal Arr .f32 :=
  result (m ((c : Thread nD τ).loc main_arg0)) (m ((c : Thread nD τ).loc main_arg1)) (m ((c : Thread nD τ).loc main_arg2))

/-- The printed index maps, decided over the 32 grid points: point `t` is matrix `t / 2`, column block `t % 2`. -/
theorem idx_facts : ∀ t : Fin cfg0.N,
    win0_0.index t (0 : Fin 2) = 0 ∧ win0_0.index t (1 : Fin 2) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = t.val % 2 :=
  (by decide +kernel : ∀ t : Fin grid0.N, _)

/-- The weight row the region finds is the weight column re-laid: entry `(0, d)` is the column's `(d, 0)`. -/
theorem weightRow_apply (c : Dev nD) (d : Fin 1024) :
    V m c main_v0 (ix2 (0 : Fin 1) d) = m ((c : Thread nD τ).loc main_arg2) (ix2 d (0 : Fin 1)) := by
  have e : (V m c main_v0 : S1x1024.Idx → EReal) = shapeCast S1x1024 (m ((c : Thread nD τ).loc main_arg2)) shapeCasts_S1024x1_S1x1024 := by
    dsimp only [Gen.V, Gen.hostOps0]; after_results; rfl
  rw [e]
  exact shapeCast_a1_1a_apply (a := 1024) _ shapeCasts_S1024x1_S1x1024 (0 : Fin 1) d

/-- The weight window's block is the whole weight row, at every point. -/
theorem wblock_apply (c : Dev nD) (t : Fin cfg0.N) (d : Fin 1024) :
    (iblk m c 0 t : Vec Ideal S1x1024 .f32) (ix2 (0 : Fin 1) d) = m ((c : Thread nD τ).loc main_arg2) (ix2 d (0 : Fin 1)) := by
  obtain ⟨e0, e1, -⟩ := idx_facts t
  refine Eq.trans ?_ (weightRow_apply m c d)
  unfold iblk
  rw [View.read_apply]
  show V m c main_v0 _ = V m c main_v0 _
  refine congrArg (V m c main_v0) (funext fun a => Fin.ext ?_)
  match a with
  | ⟨0, _⟩ => show win0_0.index t (0 : Fin 2) * 1 + 1 * 0 = 0; omega
  | ⟨1, _⟩ => show win0_0.index t (1 : Fin 2) * 1024 + 1 * d.val = d.val; omega

/-- The `a` window's block at point `t` is matrix `t / 2`, whole. -/
theorem ablock_apply (c : Dev nD) (t : Fin cfg0.N) (p : Fin 16) (hp : p.val = t.val / 2) (i d : Fin 1024) :
    (iblk m c 1 t : Vec Ideal S1x1024x1024 .f32) (ix3 (0 : Fin 1) i d) = m ((c : Thread nD τ).loc main_arg0) (ix3 p i d) := by
  obtain ⟨-, -, e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 3) * 1 + 1 * 0 = p.val; omega
  | ⟨1, _⟩ => show win0_1.index t (1 : Fin 3) * 1024 + 1 * i.val = i.val; omega
  | ⟨2, _⟩ => show win0_1.index t (2 : Fin 3) * 1024 + 1 * d.val = d.val; omega

/-- The `b` window's block at point `t` is rows `512·(t % 2) …` of matrix `t / 2`. -/
theorem bblock_apply (c : Dev nD) (t : Fin cfg0.N) (p : Fin 16) (hp : p.val = t.val / 2) (q : Fin 2) (hq : q.val = t.val % 2)
    (r : Fin 512) (d : Fin 1024) :
    (iblk m c 2 t : Vec Ideal S1x512x1024 .f32) (ix3 (0 : Fin 1) r d)
      = m ((c : Thread nD τ).loc main_arg1) (ix3 p (⟨512 * q.val + r.val, by have := q.isLt; have := r.isLt; omega⟩ : Fin 1024) d) := by
  obtain ⟨-, -, -, -, -, e0, e1, e2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t (0 : Fin 3) * 1 + 1 * 0 = p.val; omega
  | ⟨1, _⟩ => show win0_2.index t (1 : Fin 3) * 512 + 1 * r.val = 512 * q.val + r.val; omega
  | ⟨2, _⟩ => show win0_2.index t (2 : Fin 3) * 1024 + 1 * d.val = d.val; omega

/-- What the first payload stores at a point of matrix `p`: the unit rows of `a[p]`. -/
theorem scratch_rows (c : Dev nD) (t : Fin cfg0.N) (p : Fin 16) (hp : p.val = t.val / 2) (r k : Fin 1024) :
    k0_pay2 (F := Ideal) (iblk m c 0 t) (iblk m c 1 t) (ix2 r k)
      = unitRow (m ((c : Thread nD τ).loc main_arg0)) (m ((c : Thread nD τ).loc main_arg2)) p r k :=
  (pay2_apply (iblk m c 0 t) (iblk m c 1 t) r k).trans
    (blockUnit_eq (iblk m c 1 t) (iblk m c 0 t) (m ((c : Thread nD τ).loc main_arg0)) (m ((c : Thread nD τ).loc main_arg2)) p r r
      (fun d => ablock_apply m c t p hp r d) (fun d => wblock_apply m c t d) k)

/-- After an even point the scratch holds what that point's first payload stored. -/
theorem scratch_after_even (c : Dev nD) (t : Fin cfg0.N) (h0 : t.val % 2 = 0) :
    (outsAt0 m c t.val t.isLt).2 = k0_pay2 (F := Ideal) (iblk m c 0 t) (iblk m c 1 t) := by
  rw [outsAt0_A m c t h0]
  dsimp only
  exact scratch_A c (grid0.coords t) (ms0_0 t) (hs0_0 t) (ms0_1 t) (hs0_1 t) (ms0_2 t) (hs0_2 t) (ms0_3 t) (hs0_3 t) scM0_0
    (Memref.isWhole_whole _) ((hcond0_0 t).mpr h0) (iblk m c 0 t) (iblk m c 1 t) (iblk m c 2 t)

/-- The contents after a point depend on the point's position only. -/
theorem outsAt0_congr (c : Dev nD) (n n' : ℕ) (h : n < cfg0.N) (h' : n' < cfg0.N) (e : n = n') :
    outsAt0 m c n h = outsAt0 m c n' h' := by
  subst e; rfl

/-- The second payload at a point of matrix `p`, column block `q`, over a scratch holding the unit rows of `a[p]`:
    the inner products of those rows with the unit rows `512·q …` of `b[p]`. -/
theorem point_value (c : Dev nD) (t : Fin cfg0.N) (p : Fin 16) (hp : p.val = t.val / 2) (q : Fin 2) (hq : q.val = t.val % 2)
    (S : FVec Ideal S1024x1024 .bf16)
    (hS : ∀ r k : Fin 1024, S (ix2 r k) = unitRow (m ((c : Thread nD τ).loc main_arg0)) (m ((c : Thread nD τ).loc main_arg2)) p r k)
    (r : Fin 1024) (j : Fin 512) :
    k0_pay3 (F := Ideal) (iblk m c 0 t) (iblk m c 2 t) S (ix3 (0 : Fin 1) r j)
      = rowsInner (m ((c : Thread nD τ).loc main_arg0)) (m ((c : Thread nD τ).loc main_arg1)) (m ((c : Thread nD τ).loc main_arg2)) p r
          (⟨512 * q.val + j.val, by have := q.isLt; have := j.isLt; omega⟩ : Fin 1024) := by
  refine (pay3_apply (iblk m c 0 t) (iblk m c 2 t) S r j).trans ?_
  unfold rowsInner
  refine Finset.sum_congr rfl fun k _ => ?_
  rw [hS r k]
  refine congrArg (unitRow (m ((c : Thread nD τ).loc main_arg0)) (m ((c : Thread nD τ).loc main_arg2)) p r k * ·) ?_
  exact blockUnit_eq (iblk m c 2 t) (iblk m c 0 t) (m ((c : Thread nD τ).loc main_arg1)) (m ((c : Thread nD τ).loc main_arg2)) p _ j
    (fun d => bblock_apply m c t p hp q hq j d) (fun d => wblock_apply m c t d) k

/-- The block point `t` writes back, whenever the scratch the product reads holds the unit rows of `a[t / 2]`:
    the specification read through the output window's block. -/
theorem block_eq (c : Dev nD) (t : Fin cfg0.N) (S : FVec Ideal S1024x1024 .bf16)
    (hS : ∀ (p : Fin 16), p.val = t.val / 2 → ∀ r k : Fin 1024, S (ix2 r k) = unitRow (m ((c : Thread nD τ).loc main_arg0)) (m ((c : Thread nD τ).loc main_arg2)) p r k) :
    (cfg0.win 3).cut (grid0.coords t) (k0_pay3 (F := Ideal) (iblk m c 0 t) (iblk m c 2 t) S)
      = ((cfg0.win 3).blk t).view.read (Elt Ideal) (spec m c) := by
  have hN : t.val < 32 := lt_of_lt_of_eq t.isLt (show cfg0.N = 32 from N_0)
  obtain ⟨p, hp⟩ : ∃ p : Fin 16, p.val = t.val / 2 := ⟨⟨t.val / 2, by omega⟩, rfl⟩
  obtain ⟨q, hq⟩ : ∃ q : Fin 2, q.val = t.val % 2 := ⟨⟨t.val % 2, by omega⟩, rfl⟩
  obtain ⟨-, -, -, -, -, -, -, -, e0, e1, e2⟩ := idx_facts t
  refine funext fun (y : S1x1024x512.Idx) => ?_
  obtain ⟨u, r, j, rfl⟩ : ∃ (u : Fin 1) (r : Fin 1024) (j : Fin 512), y = ix3 u r j := ⟨y 0, y 1, y 2, eq_ix3 y⟩
  obtain rfl : u = 0 := Subsingleton.elim _ _
  rw [View.read_apply]
  have hemb : ((cfg0.win 3).blk t).view.emb (ix3 (0 : Fin 1) r j)
      = ix3 p r (⟨512 * q.val + j.val, by have := q.isLt; have := j.isLt; omega⟩ : Fin 1024) :=
    funext fun a => Fin.ext (by
      match a with
      | ⟨0, _⟩ => show win0_3.index t (0 : Fin 3) * 1 + 1 * 0 = p.val; omega
      | ⟨1, _⟩ => show win0_3.index t (1 : Fin 3) * 1024 + 1 * r.val = r.val; omega
      | ⟨2, _⟩ => show win0_3.index t (2 : Fin 3) * 512 + 1 * j.val = 512 * q.val + j.val; omega)
  refine Eq.trans ?_ (congrArg (spec m c) hemb).symm
  exact point_value m c t p hp q hq S (hS p hp) r j

/-- WHAT POINT `t` WRITES BACK is block `t` of the specification. At an even point the scratch was stored just before the
    product; at an odd point it holds what the even point before stored, for the same matrix. -/
theorem flushed_eq (c : Dev nD) (t : Fin cfg0.N) :
    (dats m 0 c).flushed 3 t = ((cfg0.win 3).blk t).view.read (Elt Ideal) (spec m c) := by
  have hN : t.val < 32 := lt_of_lt_of_eq t.isLt (show cfg0.N = 32 from N_0)
  by_cases h0 : t.val % 2 = 0
  · rw [Value.flushed3_A m c t h0,
      out_A c (grid0.coords t) (ms0_0 t) (hs0_0 t) (ms0_1 t) (hs0_1 t) (ms0_2 t) (hs0_2 t) (ms0_3 t) (hs0_3 t) scM0_0
        (Memref.isWhole_whole _) ((hcond0_0 t).mpr h0) (iblk m c 0 t) (iblk m c 1 t) (iblk m c 2 t)]
    exact block_eq m c t _ (fun p hp r k => scratch_rows m c t p hp r k)
  · have hlt : t.val - 1 < cfg0.N := Nat.lt_of_le_of_lt (Nat.sub_le _ _) t.isLt
    obtain ⟨s, hs⟩ : ∃ s : Fin cfg0.N, s.val = t.val - 1 := ⟨⟨t.val - 1, hlt⟩, rfl⟩
    have hsc : (outsAt0 m c (t.val - 1) hlt).2 = k0_pay2 (F := Ideal) (iblk m c 0 s) (iblk m c 1 s) :=
      (congrArg Prod.snd (outsAt0_congr m c (t.val - 1) s.val hlt s.isLt hs.symm)).trans
        (scratch_after_even m c s (by omega))
    rw [Value.flushed3_B m c t h0,
      out_B c (grid0.coords t) (ms0_0 t) (hs0_0 t) (ms0_1 t) (hs0_1 t) (ms0_2 t) (hs0_2 t) (ms0_3 t) (hs0_3 t) scM0_0
        (Memref.isWhole_whole _) (fun h => h0 ((hcond0_0 t).mp h)) (iblk m c 0 t) (iblk m c 1 t) (iblk m c 2 t)
        (outsAt0 m c (t.val - 1) hlt).2,
      hsc]
    exact block_eq m c t _ (fun p hp r k => scratch_rows m c s p (by omega) r k)

/-- An index of the array is in point `t`'s block iff each coordinate is in the block's range on its axis. -/
theorem mem_blk (t : Fin cfg0.N) (i : S16x1024x1024.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v1).slice (win0_3.rect t)).set ↔ _
  rw [View.set_slice_whole, Rect.mem_set_unit]
  exact Iff.rfl

/-- Every index `(p, i, j)` of the result is in the block of point `2·p + j / 512`. -/
theorem cover (i : S16x1024x1024.Idx) : ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  have hN : cfg0.N = 32 := N_0
  obtain ⟨t, ht⟩ : ∃ t : Fin cfg0.N, t.val = 2 * (i 0).val + (i 2).val / 512 := ⟨⟨2 * (i 0).val + (i 2).val / 512, by rw [hN]; omega⟩, rfl⟩
  obtain ⟨-, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 512 ≤ (i 2).val ∧ (i 2).val < win0_3.index t (2 : Fin 3) * 512 + 512
    omega

/-- So the result array ends as the specification of the argument arrays. -/
theorem final (c : Dev nD) : (dats m 0 c).arrAt 3 cfg0.N = spec m c :=
  (dats m 0 c).arrAt_eq_of_cover 3 (spec m c) (fun t _ => flushed_eq m c t) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RefValue

end
-- ==== Proof.RefRead.lean ====
/-
  The reference, read index by index, is the specification.

  The reference weights both arrays (`x · w` with `w` re-laid and repeated over the matrices and rows), sums each weighted
  row's squares over its last axis (starting from the zero word, which is the extended real 0), bounds the sum below by the
  floor word, takes the reciprocal square root, repeats it along the row and multiplies: the unit rows. Its last operation
  contracts the last axes of the two unit-row arrays, matrix by matrix: the inner products. Each step is the generated
  reading of one operation at an index; composed, the indices land on `(p, i, d)`, `(p, i, k)` and `(d, 0)`.
-/
import proofs.«146136_j21715354648692_2_alg».proof.Proof.Gen.ReferenceIdeal.Read
import proofs.«146136_j21715354648692_2_alg».proof.Proof.Spec
import Idealize.ShloMosaic.PureOps.Ideal.Laws

noncomputable section

namespace Cert.Match.Ref

open Cert.ReferenceIdeal Cert.ReferenceIdeal.Read Idealize.ShloMosaic Idealize.ShloMosaic.ValueIdx Cert.Match

/-- The weighted array at `(p, i, d)`: the re-laid, twice repeated weight read at `(p, i, d)` is `w[d, 0]`. -/
theorem weighted_apply (x : (⟨S16x1024x1024, .f32⟩ : BufTy).Contents (Elt Ideal)) (w : (⟨S1024x1, .f32⟩ : BufTy).Contents (Elt Ideal))
    (p : Fin 16) (i d : Fin 1024) : val_main_v3 (F := Ideal) x w (ix3 p i d) = weighted x w p i d := by
  rw [val_main_v3_apply, val_main_v2_apply, val_main_v1_apply, val_main_v0_apply]
  have e : idx_main_v0 (idx_main_v1 (idx_main_v2 (ix3 p i d))) = ix2 d (0 : Fin 1) :=
    funext fun a => Fin.ext (by match a with | ⟨0, _⟩ => exact Nat.div_one _ | ⟨1, _⟩ => rfl)
  rw [e]
  rfl

/-- The unit-row array of the first operand at `(p, i, d)`. -/
theorem unitRow_apply (x : (⟨S16x1024x1024, .f32⟩ : BufTy).Contents (Elt Ideal)) (w : (⟨S1024x1, .f32⟩ : BufTy).Contents (Elt Ideal))
    (p : Fin 16) (i d : Fin 1024) : val_main_v11 (F := Ideal) x w (ix3 p i d) = unitRow x w p i d := by
  rw [val_main_v11_apply, val_main_v10_apply, val_main_v9_apply, val_main_v8_apply, val_main_v6_apply, val_main_v5_apply,
    val_main_v7_apply, val_main_cst_0_apply, val_main_cst_apply, weighted_apply]
  have e : ∀ k : Fin 1024, idx_main_v5 (idx_main_v6 (idx_main_v10 (ix3 p i d))) k = ix3 p i k := fun k =>
    funext fun a => Fin.ext (by match a with | ⟨0, _⟩ => rfl | ⟨1, _⟩ => rfl | ⟨2, _⟩ => rfl)
  simp only [e, val_main_v4_apply, weighted_apply, Ideal.mulf_def, Ideal.maximumf_def, Ideal.hostUnary_rsqrt_def, Ideal.ofBits_def,
    Ideal.ofBits_zero_f32, zero_add]
  rfl

/-- The second operand's chain is the first's, operation for operation. -/
theorem second_eq_first (x : (⟨S16x1024x1024, .f32⟩ : BufTy).Contents (Elt Ideal)) (w : (⟨S1024x1, .f32⟩ : BufTy).Contents (Elt Ideal)) :
    val_main_v22 (F := Ideal) x w = val_main_v11 (F := Ideal) x w := rfl

/-- The reference's result is the specification, index by index. -/
theorem result_eq (a b : (⟨S16x1024x1024, .f32⟩ : BufTy).Contents (Elt Ideal)) (w : (⟨S1024x1, .f32⟩ : BufTy).Contents (Elt Ideal)) :
    val_main_v23 (F := Ideal) a b w = result a b w := by
  funext t
  obtain ⟨p, i, j, rfl⟩ : ∃ (p : Fin 16) (i j : Fin 1024), t = ix3 p i j := ⟨t 0, t 1, t 2, eq_ix3 t⟩
  rw [val_main_v23_apply, result_ix3, second_eq_first]
  unfold rowsInner
  refine Finset.sum_congr rfl fun k _ => ?_
  have el : lidx_main_v23 (ix3 p i j) k = ix3 p i k :=
    funext fun a => Fin.ext (by match a with | ⟨0, _⟩ => rfl | ⟨1, _⟩ => rfl | ⟨2, _⟩ => rfl)
  have er : ridx_main_v23 (ix3 p i j) k = ix3 p j k :=
    funext fun a => Fin.ext (by match a with | ⟨0, _⟩ => rfl | ⟨1, _⟩ => rfl | ⟨2, _⟩ => rfl)
  rw [el, er, unitRow_apply, unitRow_apply]

end Cert.Match.Ref

end
-- ==== Proof.lean ====
/-
  The five claims of this certificate.

  The kernel takes two stacks of sixteen 1024 × 1024 matrices and a weight column; it weights every row entry by entry,
  scales it to unit length (the weighted row times the reciprocal square root of its squares' sum bounded below by one
  fixed f32 word), and writes, for each matrix, the table of inner products of the unit rows of the first stack with the unit
  rows of the second. It does so over a grid of 32 points — matrix by matrix, two blocks of 512 columns each — keeping the
  unit rows of the first stack's matrix in a scratch buffer from the first column block to the second. The reference
  computes the same table with whole-array operations and one batched contraction.

  Over the extended reals the two are one function of the arguments: the same weighting, the same sum of squares (a finite
  sum, whichever way it is grouped), the same bound, the same reciprocal square root, and the contraction is the same finite
  sum of products; narrowing to bf16 is the identity there. No step needs the inputs to be finite, so the precondition is
  not opened. The three frames are the programs' runs with the results dropped; the idealization rewrote nothing, so
  `preserves` is trivial; `algebraic` puts the kernel's run (its result array read as the specification, block by block)
  beside the reference's run (its composed term read index by index as the specification) on arguments that agree.
-/
import proofs.«146136_j21715354648692_2_alg».proof.Defs
import proofs.«146136_j21715354648692_2_alg».proof.Proof.Gen.Kernel
import proofs.«146136_j21715354648692_2_alg».proof.Proof.Gen.Kernel.Skeleton
import proofs.«146136_j21715354648692_2_alg».proof.Proof.Gen.Kernel.Launch
import proofs.«146136_j21715354648692_2_alg».proof.Proof.Gen.Kernel.Points
import proofs.«146136_j21715354648692_2_alg».proof.Proof.Gen.Kernel.Frame
import proofs.«146136_j21715354648692_2_alg».proof.Proof.Gen.KernelIdeal
import proofs.«146136_j21715354648692_2_alg».proof.Proof.Gen.KernelIdeal.Skeleton
import proofs.«146136_j21715354648692_2_alg».proof.Proof.Gen.KernelIdeal.Launch
import proofs.«146136_j21715354648692_2_alg».proof.Proof.Gen.KernelIdeal.Points
import proofs.«146136_j21715354648692_2_alg».proof.Proof.Gen.KernelIdeal.Frame
import proofs.«146136_j21715354648692_2_alg».proof.Proof.Gen.ReferenceIdeal
import proofs.«146136_j21715354648692_2_alg».proof.Proof.Gen.Pre_finite_inputs
import proofs.«146136_j21715354648692_2_alg».proof.Proof.Gen.KernelIdeal.Value
import proofs.«146136_j21715354648692_2_alg».proof.Proof.Gen.ReferenceIdeal.Run
import proofs.«146136_j21715354648692_2_alg».proof.Proof.Gen.ReferenceIdeal.Read
import proofs.«146136_j21715354648692_2_alg».proof.Proof.KernelValue
import proofs.«146136_j21715354648692_2_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of arguments that agree. -/
theorem algebraic : Cert.algebraic_KernelIdeal_ReferenceIdeal := by
  intro m ρ m' ρ' _ hagree
  refine ⟨fun c => Cert.KernelIdeal.RefValue.spec m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Match.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
